-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S512x256 : Shape := ⟨2, ![512, 256]⟩
abbrev S512 : Shape := ⟨1, ![512]⟩
abbrev S512x1024 : Shape := ⟨2, ![512, 1024]⟩
abbrev S1x512 : Shape := ⟨2, ![1, 512]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S512 .f32) (main_arg6 : FVec F S1x512 .f32) (main_arg7 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg6
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x400000 32) (main_arg2 : FVec F S512x256 .f32) (main_arg3 : FVec F S512 .f32) (main_arg4 : FVec F S512x1024 .f32) (main_arg5 : FVec F S512 .f32) (main_arg6 : FVec F S1x512 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_v13 main_v16
-- ==== Kernel.lean ====
abbrev S50000x128 : Shape := ⟨2, ![50000, 128]⟩
abbrev S2x400000 : Shape := ⟨2, ![2, 400000]⟩
abbrev S512x256 : Shape := ⟨2, ![512, 256]⟩
abbrev S512 : Shape := ⟨1, ![512]⟩
abbrev S512x1024 : Shape := ⟨2, ![512, 1024]⟩
abbrev S1x512 : Shape := ⟨2, ![1, 512]⟩
abbrev S1 : Shape := ⟨1, ![1]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S400000x128 : Shape := ⟨2, ![400000, 128]⟩
abbrev S50000x1 : Shape := ⟨2, ![50000, 1]⟩
abbrev S512x128 : Shape := ⟨2, ![512, 128]⟩
abbrev S128x512 : Shape := ⟨2, ![128, 512]⟩
abbrev S50000x512 : Shape := ⟨2, ![50000, 512]⟩
abbrev S2000x128 : Shape := ⟨2, ![2000, 128]⟩
abbrev S2000x512 : Shape := ⟨2, ![2000, 512]⟩
abbrev S400000x512 : Shape := ⟨2, ![400000, 512]⟩
abbrev S512x512 : Shape := ⟨2, ![512, 512]⟩
abbrev S512x1 : Shape := ⟨2, ![512, 1]⟩
abbrev S2000x1 : Shape := ⟨2, ![2000, 1]⟩
abbrev S1x1 : Shape := ⟨2, ![1, 1]⟩

abbrev nBuf : Space → Nat
  | .hbm => 72
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S512x256, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .f32⟩
  | .hbm, ⟨13, _⟩ => ⟨S400000, .f32⟩
  | .hbm, ⟨14, _⟩ => ⟨S_, .f32⟩
  | .hbm, ⟨15, _⟩ => ⟨S50000, .f32⟩
  | .hbm, ⟨16, _⟩ => ⟨S400000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S_, .f32⟩
  | .hbm, ⟨34, _⟩ => ⟨S50000x128, .f32⟩
  | .hbm, ⟨35, _⟩ => ⟨S400000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S512x128, .f32⟩
  | .hbm, ⟨41, _⟩ => ⟨S512x128, .f32⟩
  | .hbm, ⟨42, _⟩ => ⟨S128x512, .f32⟩
  | .hbm, ⟨43, _⟩ => ⟨S128x512, .bf16⟩
  | .hbm, ⟨44, _⟩ => ⟨S128x512, .f32⟩
  | .hbm, ⟨45, _⟩ => ⟨S128x512, .bf16⟩
  | .hbm, ⟨46, _⟩ => ⟨S50000x512, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x512, .f32⟩
  | .hbm, ⟨56, _⟩ => ⟨S_, .f32⟩
  | .hbm, ⟨57, _⟩ => ⟨S50000x512, .f32⟩
  | .hbm, ⟨58, _⟩ => ⟨S400000x1, .i32⟩
  | .hbm, ⟨59, _⟩ => ⟨S50000x512, .f32⟩
  | .hbm, ⟨60, _⟩ => ⟨S50000x1, .f32⟩
  | .hbm, ⟨61, _⟩ => ⟨S50000x512, .f32⟩
  | .hbm, ⟨62, _⟩ => ⟨S50000x512, .f32⟩
  | .hbm, ⟨63, _⟩ => ⟨S512x512, .f32⟩
  | .hbm, ⟨64, _⟩ => ⟨S512x512, .f32⟩
  | .hbm, ⟨65, _⟩ => ⟨S512x512, .f32⟩
  | .hbm, ⟨66, _⟩ => ⟨S512x512, .bf16⟩
  | .hbm, ⟨67, _⟩ => ⟨S512x512, .f32⟩
  | .hbm, ⟨68, _⟩ => ⟨S512x512, .bf16⟩
  | .hbm, ⟨69, _⟩ => ⟨S512x1, .f32⟩
  | .hbm, ⟨70, _⟩ => ⟨S512x1, .bf16⟩
  | .hbm, ⟨71, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x512, .bf16⟩
  | .local _ .vmem, ⟨5, _⟩ => ⟨S128x512, .bf16⟩
  | .local _ .vmem, ⟨6, _⟩ => ⟨S512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S2000x512, .f32⟩
  | .local _ .vmem, ⟨13, _⟩ => ⟨S512x512, .bf16⟩
  | .local _ .vmem, ⟨14, _⟩ => ⟨S512x512, .bf16⟩
  | .local _ .vmem, ⟨15, _⟩ => ⟨S512, .f32⟩
  | .local _ .vmem, ⟨16, _⟩ => ⟨S512x1, .bf16⟩
  | .local _ .vmem, ⟨17, _⟩ => ⟨S1, .f32⟩
  | .local _ .vmem, ⟨18, _⟩ => ⟨S2000x1, .f32⟩
  | .local _ .vmem, ⟨19, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S512x256_S512x128_0_0 : S512x256.Slices ![0, 0] S512x128
  slices_S512x256_S512x128_0_128 : S512x256.Slices ![0, 128] S512x128
  transposes_S512x128_S128x512_1_0 : S512x128.Transposes [1, 0] S128x512
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  slices_S512x1024_S512x512_0_0 : S512x1024.Slices ![0, 0] S512x512
  slices_S512x1024_S512x512_0_512 : S512x1024.Slices ![0, 512] S512x512
  transposes_S512x512_S512x512_1_0 : S512x512.Transposes [1, 0] S512x512
  transposes_S1x512_S512x1_1_0 : S1x512.Transposes [1, 0] S512x1
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S400000x1_S400000_n_0_0_1_wf : ScatterDims.WF S50000 S400000x1 S400000 [] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S2000x128_S128x512_S2000x512_1_0_0_1_n_n_wf : DotDims.WF S2000x128 S128x512 S2000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S2000x512_S512x512_S2000x512_1_0_0_1_n_n_wf : DotDims.WF S2000x512 S512x512 S2000x512 [1] [0] [0] [1] [] []
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S50000x512.size a
  hwx1_1 : ∀ i : grid1.Coords, EltTy.bits .f32 = 32 ∨ (Rect.block (s := S50000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S512x1.size a
  hwx1_5 : ∀ i : grid1.Coords, EltTy.bits .bf16 = 32 ∨ (Rect.block (s := S512x1) S512x1.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S50000x1.size a
  hwx1_7 : ∀ i : grid1.Coords, EltTy.bits .f32 = 32 ∨ (Rect.block (s := S50000x1) S2000x1.size (cc1_transform_7 i) (hinb1_7 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S512x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S2000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S512x256 : Shape := ⟨2, ![512, 256]⟩
abbrev S512 : Shape := ⟨1, ![512]⟩
abbrev S512x1024 : Shape := ⟨2, ![512, 1024]⟩
abbrev S1x512 : Shape := ⟨2, ![1, 512]⟩
abbrev S1 : Shape := ⟨1, ![1]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S400000x128 : Shape := ⟨2, ![400000, 128]⟩
abbrev S50000x1 : Shape := ⟨2, ![50000, 1]⟩
abbrev S50000x256 : Shape := ⟨2, ![50000, 256]⟩
abbrev S256x512 : Shape := ⟨2, ![256, 512]⟩
abbrev S50000x512 : Shape := ⟨2, ![50000, 512]⟩
abbrev S400000x512 : Shape := ⟨2, ![400000, 512]⟩
abbrev S50000x1024 : Shape := ⟨2, ![50000, 1024]⟩
abbrev S1024x512 : Shape := ⟨2, ![1024, 512]⟩
abbrev S512x1 : Shape := ⟨2, ![512, 1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S512x256, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .f32⟩
  | .hbm, ⟨13, _⟩ => ⟨S400000, .f32⟩
  | .hbm, ⟨14, _⟩ => ⟨S_, .f32⟩
  | .hbm, ⟨15, _⟩ => ⟨S50000, .f32⟩
  | .hbm, ⟨16, _⟩ => ⟨S400000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S_, .f32⟩
  | .hbm, ⟨34, _⟩ => ⟨S50000x128, .f32⟩
  | .hbm, ⟨35, _⟩ => ⟨S400000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S256x512, .f32⟩
  | .hbm, ⟨42, _⟩ => ⟨S50000x512, .f32⟩
  | .hbm, ⟨43, _⟩ => ⟨S1x512, .f32⟩
  | .hbm, ⟨44, _⟩ => ⟨S50000x512, .f32⟩
  | .hbm, ⟨45, _⟩ => ⟨S50000x512, .f32⟩
  | .hbm, ⟨46, _⟩ => ⟨S_, .f32⟩
  | .hbm, ⟨47, _⟩ => ⟨S50000x512, .f32⟩
  | .hbm, ⟨48, _⟩ => ⟨S50000x512, .f32⟩
  | .hbm, ⟨49, _⟩ => ⟨S_, .i32⟩
  | .hbm, ⟨50, _⟩ => ⟨S400000, .i32⟩
  | .hbm, ⟨51, _⟩ => ⟨S400000, .i1⟩
  | .hbm, ⟨52, _⟩ => ⟨S_, .i32⟩
  | .hbm, ⟨53, _⟩ => ⟨S400000, .i32⟩
  | .hbm, ⟨54, _⟩ => ⟨S400000, .i32⟩
  | .hbm, ⟨55, _⟩ => ⟨S400000, .i32⟩
  | .hbm, ⟨56, _⟩ => ⟨S400000x1, .i32⟩
  | .hbm, ⟨57, _⟩ => ⟨S400000x512, .f32⟩
  | .hbm, ⟨58, _⟩ => ⟨S_, .f32⟩
  | .hbm, ⟨59, _⟩ => ⟨S50000x512, .f32⟩
  | .hbm, ⟨60, _⟩ => ⟨S400000x1, .i32⟩
  | .hbm, ⟨61, _⟩ => ⟨S50000x512, .f32⟩
  | .hbm, ⟨62, _⟩ => ⟨S50000x1, .f32⟩
  | .hbm, ⟨63, _⟩ => ⟨S50000x512, .f32⟩
  | .hbm, ⟨64, _⟩ => ⟨S50000x512, .f32⟩
  | .hbm, ⟨65, _⟩ => ⟨S50000x1024, .f32⟩
  | .hbm, ⟨66, _⟩ => ⟨S1024x512, .f32⟩
  | .hbm, ⟨67, _⟩ => ⟨S50000x512, .f32⟩
  | .hbm, ⟨68, _⟩ => ⟨S1x512, .f32⟩
  | .hbm, ⟨69, _⟩ => ⟨S50000x512, .f32⟩
  | .hbm, ⟨70, _⟩ => ⟨S50000x512, .f32⟩
  | .hbm, ⟨71, _⟩ => ⟨S_, .f32⟩
  | .hbm, ⟨72, _⟩ => ⟨S50000x512, .f32⟩
  | .hbm, ⟨73, _⟩ => ⟨S50000x512, .f32⟩
  | .hbm, ⟨74, _⟩ => ⟨S512x1, .f32⟩
  | .hbm, ⟨75, _⟩ => ⟨S50000x1, .f32⟩
  | .hbm, ⟨76, _⟩ => ⟨S1x1, .f32⟩
  | .hbm, ⟨77, _⟩ => ⟨S50000x1, .f32⟩
  | .hbm, ⟨78, _⟩ => ⟨S50000x1, .f32⟩
  | .hbm, ⟨79, _⟩ => ⟨S50000x1, .f32⟩
  | .hbm, ⟨80, _⟩ => ⟨S50000x1, .f32⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S512x256_S256x512_1_0 : S512x256.Transposes [1, 0] S256x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  concatenates_S50000x512_S50000x512_S50000x1024_d1 : Shape.Concatenates [S50000x512, S50000x512] S50000x1024 1
  transposes_S512x1024_S1024x512_1_0 : S512x1024.Transposes [1, 0] S1024x512
  transposes_S1x512_S512x1_1_0 : S1x512.Transposes [1, 0] S512x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S400000x1_S400000_n_0_0_1_wf : ScatterDims.WF S50000 S400000x1 S400000 [] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S50000x256_S256x512_S50000x512_1_0_0_1_n_n_wf : DotDims.WF S50000x256 S256x512 S50000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x1024_S1024x512_S50000x512_1_0_0_1_n_n_wf : DotDims.WF S50000x1024 S1024x512 S50000x512 [1] [0] [0] [1] [] []
  dot_S50000x512_S512x1_S50000x1_1_0_0_1_n_n_wf : DotDims.WF S50000x512 S512x1 S50000x1 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf

class Facts : Prop extends Facts₀ where

variable [Facts]
-- ==== Proof.KernelRun.lean ====
/-
  The idealized kernel's run, with its result named.

  The program is four segments: a stretch of host operations, the first layer's kernel over a grid of row blocks,
  a second stretch of host operations, and the second layer's kernel with the output head. Every unscoped buffer's
  contents after the last segment are a fold through the four: what the host stretches compute, and, for each
  kernel, its arrays as the write-backs of its grid points leave them. The run below states the frame's conclusion
  with one more fact read off the same last contents: the result array ends at that fold's value.
-/
import proofs.«109482_j80522046865741_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution terminates, nothing faulting; the result array
    ends at the last boundary's contents and the argument arrays end as launched. -/
theorem run : θ_run defs (onTc (τ := τ) (main (F := F))) ⟨m, fun _ => 0, ρ⟩ (fun r => ∀ c : Dev nD,
      r.2.mem ((c.tc : Thread nD τ).loc main_v53) = W4 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v53 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.SageSpec.lean ====
/-
  The two functions this certificate's programs compute, on the extended reals, as whole-array functions.

  A GraphSAGE layer takes a node's own features `a[i, ·]` and its aggregated neighbour features `n[i, ·]`, both of
  length `K`, and a weight matrix `W` with `K + K` columns, the first `K` meeting the node's own features and the
  last `K` the neighbours':

      layer a n W b [i, j] = max (Σₖ a[i,k]·W[j,k] + Σₖ n[i,k]·W[j,K+k] + b[j]) 0.

  The output head is the logistic function of an affine form of the second layer's row:

      head h Wo bo [i, 0] = σ (Σₖ h[i,k]·Wo[0,k] + bo[0]).

  The zero of the rectifier is kept as the binary32 word both programs print for it.
-/
import Idealize.ShloMosaic.PureOps.Ideal
import Idealize.ShloMosaic.Lib.ValueIdx

noncomputable section

namespace Cert.Sage

open Idealize.ShloMosaic Idealize.ShloMosaic.ValueIdx

/-- The rectifier's threshold: the binary32 word of zero, at the ideal values. -/
abbrev zero32 : EReal := Ideal.ofBits .f32 0x00000000#32

/-- One layer: own features against the first `K` columns of `W`, neighbour features against the last `K`, the bias
    added, the negative part cut off. -/
def layer {M K N : ℕ} (a n : (⟨2, ![M, K]⟩ : Shape).Idx → EReal) (W : (⟨2, ![N, K + K]⟩ : Shape).Idx → EReal)
    (b : (⟨1, ![N]⟩ : Shape).Idx → EReal) : (⟨2, ![M, N]⟩ : Shape).Idx → EReal :=
  fun I => max (((∑ k : Fin K, a (ix2 (I 0) k) * W (ix2 (I 1) (Fin.castAdd K k)))
      + ∑ k : Fin K, n (ix2 (I 0) k) * W (ix2 (I 1) (Fin.natAdd K k))) + b (ix1 (I 1))) zero32

/-- The output head: the logistic function of the row's affine form. -/
def head {M K : ℕ} (h : (⟨2, ![M, K]⟩ : Shape).Idx → EReal) (Wo : (⟨2, ![1, K]⟩ : Shape).Idx → EReal)
    (bo : (⟨1, ![1]⟩ : Shape).Idx → EReal) : (⟨2, ![M, 1]⟩ : Shape).Idx → EReal :=
  fun I => Ideal.logistic ((∑ k : Fin K, h (ix2 (I 0) k) * Wo (ix2 (0 : Fin 1) k)) + bo (ix1 (0 : Fin 1)))

end Cert.Sage

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibAffineRow.lean ====
/-
  An affine layer read at an index, on the extended reals.

  * A bias vector `[N]` cast to one row `[1, N]` and broadcast over `M` rows reads, at `(r, j)`, the bias at `j`.
  * A matrix product of an `M×K` by a `K×N` matrix into a zero accumulator, plus such a bias, reads at `(r, j)`
    `Σₖ l[r,k]·w[k,j] + b[j]`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«109482_j80522046865741_1_alg».proof.Proof.LibPlainDot

noncomputable section

open scoped BigOperators

namespace Cert.Lib

open Idealize.ShloMosaic Idealize.ShloMosaic.ValueIdx

/-- A bias vector cast to one row and broadcast over the rows, at `(r, j)`, is the bias at `j`. -/
theorem bias_rows_apply {α : Type} {M N : ℕ} (b : (⟨1, ![N]⟩ : Shape).Idx → α)
    (hs : (⟨1, ![N]⟩ : Shape).ShapeCasts ⟨2, ![1, N]⟩) (hb : (⟨2, ![1, N]⟩ : Shape).Broadcasts ⟨2, ![M, N]⟩)
    (r : Fin M) (j : Fin N) :
    broadcastTo ⟨2, ![M, N]⟩ (shapeCast ⟨2, ![1, N]⟩ b hs) hb (ix2 r j) = b (ix1 j) :=
  (broadcastTo_1b_ab_apply (shapeCast ⟨2, ![1, N]⟩ b hs) hb r j).trans (shapeCast_a_1a_apply b hs 0 j)

/-- AN AFFINE LAYER at `(r, j)`: the product into a zero accumulator plus the bias row is `Σₖ l[r,k]·w[k,j] + b[j]`. -/
theorem matmul_bias_apply (M K N : ℕ) {φ₁ φ₂ : FTy} (prec : Option ContractPrecision)
    (l : FVec Ideal ⟨2, ![M, K]⟩ φ₁) (w : FVec Ideal ⟨2, ![K, N]⟩ φ₂) (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (j : Fin N) :
    addf (matmul (DotDims.plain M K N) prec l w (constant ⟨2, ![M, N]⟩ .f32 0x00000000#32))
        (broadcastTo ⟨2, ![M, N]⟩ (shapeCast ⟨2, ![1, N]⟩ b hs) hb) (ix2 r j)
      = (∑ k : Fin K, l (ix2 r k) * w (ix2 k j)) + b (ix1 j) := by
  rw [addf_apply, plain_matmul_zero_apply, bias_rows_apply]

end Cert.Lib

end
-- ==== Proof.LibTwoBlockLayer.lean ====
/-
  A layer whose input is split in two blocks, read at an index, on the extended reals.

  A kernel that never forms the joined row `[a | n]` computes the layer as two matrix products into zero
  accumulators, added, plus the bias row, then cuts off the negative part:

      max (a·Wa + n·Wb + bias) 0   at (r, j)   is   max (Σₖ a[r,k]·Wa[k,j] + Σₖ n[r,k]·Wb[k,j] + bias[j]) 0.

  The narrowing of an operand to a shorter float format and a shape cast of an array to its own shape are the
  identity at the ideal values, so the operands may arrive through either.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«109482_j80522046865741_1_alg».proof.Proof.LibPlainDot
import proofs.«109482_j80522046865741_1_alg».proof.Proof.LibAffineRow

noncomputable section

namespace Cert.Lib

open Idealize.ShloMosaic Idealize.ShloMosaic.ValueIdx

/-- TWO PRODUCTS INTO ZERO ACCUMULATORS, ADDED, PLUS THE BIAS ROW, at `(r, j)`. -/
theorem two_matmul_bias_apply (M K N : ℕ) {φ₁ φ₂ φ₃ φ₄ : FTy} (prec : Option ContractPrecision)
    (a : FVec Ideal ⟨2, ![M, K]⟩ φ₁) (wa : FVec Ideal ⟨2, ![K, N]⟩ φ₂)
    (n : FVec Ideal ⟨2, ![M, K]⟩ φ₃) (wb : FVec Ideal ⟨2, ![K, N]⟩ φ₄) (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (j : Fin N) :
    addf (addf (matmul (DotDims.plain M K N) prec a wa (constant ⟨2, ![M, N]⟩ .f32 0x00000000#32))
          (matmul (DotDims.plain M K N) prec n wb (constant ⟨2, ![M, N]⟩ .f32 0x00000000#32)))
        (broadcastTo ⟨2, ![M, N]⟩ (shapeCast ⟨2, ![1, N]⟩ b hs) hb) (ix2 r j)
      = ((∑ k : Fin K, a (ix2 r k) * wa (ix2 k j)) + ∑ k : Fin K, n (ix2 r k) * wb (ix2 k j)) + b (ix1 j) := by
  rw [addf_apply, addf_apply, plain_matmul_zero_apply, plain_matmul_zero_apply, bias_rows_apply]

/-- THE RECTIFIED LAYER at `(r, j)`: the two products and the bias, against the splat of the binary32 zero. -/
theorem two_matmul_bias_relu_apply (M K N : ℕ) {φ₁ φ₂ φ₃ φ₄ : FTy} (prec : Option ContractPrecision)
    (a : FVec Ideal ⟨2, ![M, K]⟩ φ₁) (wa : FVec Ideal ⟨2, ![K, N]⟩ φ₂)
    (n : FVec Ideal ⟨2, ![M, K]⟩ φ₃) (wb : FVec Ideal ⟨2, ![K, N]⟩ φ₄) (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (j : Fin N) :
    maximumf (addf (addf (matmul (DotDims.plain M K N) prec a wa (constant ⟨2, ![M, N]⟩ .f32 0x00000000#32))
            (matmul (DotDims.plain M K N) prec n wb (constant ⟨2, ![M, N]⟩ .f32 0x00000000#32)))
          (broadcastTo ⟨2, ![M, N]⟩ (shapeCast ⟨2, ![1, N]⟩ b hs) hb))
        (broadcast ⟨2, ![M, N]⟩ (Scalar.ofBits (F := Ideal) .f32 0x00000000#32)) (ix2 r j)
      = max (((∑ k : Fin K, a (ix2 r k) * wa (ix2 k j)) + ∑ k : Fin K, n (ix2 r k) * wb (ix2 k j)) + b (ix1 j))
          (Ideal.ofBits .f32 0x00000000#32) := by
  rw [maximumf_apply, two_matmul_bias_apply]
  rfl

end Cert.Lib

end
-- ==== Proof.KernelLayer1.lean ====
/-
  What the first kernel leaves in its output array: the layer of the arrays it finds.

  The grid has 25 points; point `t` stages rows `2000·t … 2000·t + 1999` of the node features and of the aggregated
  features, the two whole weight blocks and the whole bias, and writes back rows `2000·t …` of the output. Its body
  is two matrix products into zero accumulators, added, plus the bias row, rectified. So row `2000·t + r` of the
  output is the layer's row `2000·t + r`, provided the two staged weight blocks are the two halves of a weight
  matrix `W`, transposed: block one at `(k, j)` is `W[j, k]`, block two is `W[j, 128 + k]`. The 25 row blocks tile
  the array, so the array ends at the layer.
-/
import proofs.«109482_j80522046865741_1_alg».proof.Proof.Gen.KernelIdeal.Frame
import proofs.«109482_j80522046865741_1_alg».proof.Proof.SageSpec
import proofs.«109482_j80522046865741_1_alg».proof.Proof.LibTwoBlockLayer
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The first kernel's arithmetic at `(r, j)` of a block: the two products, the bias, the rectifier. -/
theorem pay0_apply (x0 x1 : Vec Ideal S2000x128 .f32) (x2 x3 : Vec Ideal S128x512 .bf16) (x4 : Vec Ideal S512 .f32)
    (r : Fin 2000) (j : Fin 512) :
    k0_pay1 x0 x1 x2 x3 x4 (ix2 r j)
      = max (((∑ k : Fin 128, x0 (ix2 r k) * x2 (ix2 k j)) + ∑ k : Fin 128, x1 (ix2 r k) * x3 (ix2 k j)) + x4 (ix1 j))
          (Ideal.ofBits .f32 0x00000000#32) := by
  unfold k0_pay1
  rw [shapeCast_self, shapeCast_self, shapeCast_self]
  exact Cert.Lib.two_matmul_bias_relu_apply 2000 128 512 none (truncf .bf16 x0 bitsLt_bf16_f32) x2
    (truncf .bf16 x1 bitsLt_bf16_f32) x3 x4 shapeCasts_S512_S1x512 broadcasts_S1x512_S2000x512 r j

/-- The printed index maps over the grid: the two row-blocked inputs and the output move with the point, the weight
    blocks and the bias stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is block `t` of the layer of the arrays the region finds. -/
theorem flushed0_eq (c : Dev nD) (W : (⟨2, ![512, 128 + 128]⟩ : Shape).Idx → EReal)
    (hWa : ∀ (k : Fin 128) (j : Fin 512), (V c main_v28 : S128x512.Idx → EReal) (ix2 k j) = W (ix2 j (Fin.castAdd 128 k)))
    (hWb : ∀ (k : Fin 128) (j : Fin 512), (V c main_v30 : S128x512.Idx → EReal) (ix2 k j) = W (ix2 j (Fin.natAdd 128 k)))
    (t : Fin cfg0.N) :
    (dat0 V c).flushed 5 t = ((cfg0.win 5).blk t).view.read (Elt Ideal)
      (Cert.Sage.layer (M := 50000) (K := 128) (N := 512) (V c main_arg0) (V c main_v24) W (V c main_arg3)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x512) hz2, View.ld_unit_zero (S := S512) hz1]
  obtain ⟨e00, e01, e10, e11, e20, e21, e30, e31, e40, e50, e51⟩ := idx_facts0 t
  have ht : t.val < 25 := by have h1 := t.isLt; have h2 : cfg0.N = 25 := N_0; omega
  funext y
  obtain ⟨r, j, rfl⟩ : ∃ (r : Fin 2000) (j : Fin 512), y = ix2 r j := ⟨y 0, y 1, eq_ix2 y⟩
  have hr : r.val < 2000 := r.isLt
  refine (pay0_apply _ _ _ _ _ r j).trans ?_
  -- the array index this block entry is written to
  have hE : ((cfg0.win 5).blk t).view.emb (ix2 r j) = (ix2 (⟨2000 * t.val + r.val, by omega⟩ : Fin 50000) j : S50000x512.Idx) := by
    funext a; apply Fin.ext
    match a with
    | ⟨0, _⟩ => show win0_5.index t (0 : Fin 2) * 2000 + 1 * r.val = 2000 * t.val + r.val; rw [e50]; omega
    | ⟨1, _⟩ => show win0_5.index t (1 : Fin 2) * 512 + 1 * j.val = j.val; rw [e51]; omega
  rw [View.read_apply, hE]
  unfold Cert.Sage.layer
  -- each input block's entry is the array's entry at the row block's offset
  have hx : ∀ k : Fin 128, (iblk0 V c 0 t : Vec Ideal S2000x128 .f32) (ix2 r k)
      = (V c main_arg0 : S50000x128.Idx → EReal) (ix2 (⟨2000 * t.val + r.val, by omega⟩ : Fin 50000) k) := fun k => by
    unfold iblk0; rw [View.read_apply]
    show V c main_arg0 _ = V c main_arg0 _
    congr 1; funext a; apply Fin.ext
    match a with
    | ⟨0, _⟩ => show win0_0.index t (0 : Fin 2) * 2000 + 1 * r.val = 2000 * t.val + r.val; rw [e00]; omega
    | ⟨1, _⟩ => show win0_0.index t (1 : Fin 2) * 128 + 1 * k.val = k.val; rw [e01]; omega
  have hn : ∀ k : Fin 128, (iblk0 V c 1 t : Vec Ideal S2000x128 .f32) (ix2 r k)
      = (V c main_v24 : S50000x128.Idx → EReal) (ix2 (⟨2000 * t.val + r.val, by omega⟩ : Fin 50000) k) := fun k => by
    unfold iblk0; rw [View.read_apply]
    show V c main_v24 _ = V c main_v24 _
    congr 1; funext a; apply Fin.ext
    match a with
    | ⟨0, _⟩ => show win0_1.index t (0 : Fin 2) * 2000 + 1 * r.val = 2000 * t.val + r.val; rw [e10]; omega
    | ⟨1, _⟩ => show win0_1.index t (1 : Fin 2) * 128 + 1 * k.val = k.val; rw [e11]; omega
  have hwa : ∀ k : Fin 128, (iblk0 V c 2 t : Vec Ideal S128x512 .bf16) (ix2 k j) = W (ix2 j (Fin.castAdd 128 k)) := fun k => by
    rw [← hWa k j]
    unfold iblk0; rw [View.read_apply]
    show V c main_v28 _ = V c main_v28 _
    congr 1; funext a; apply Fin.ext
    match a with
    | ⟨0, _⟩ => show win0_2.index t (0 : Fin 2) * 128 + 1 * k.val = k.val; rw [e20]; omega
    | ⟨1, _⟩ => show win0_2.index t (1 : Fin 2) * 512 + 1 * j.val = j.val; rw [e21]; omega
  have hwb : ∀ k : Fin 128, (iblk0 V c 3 t : Vec Ideal S128x512 .bf16) (ix2 k j) = W (ix2 j (Fin.natAdd 128 k)) := fun k => by
    rw [← hWb k j]
    unfold iblk0; rw [View.read_apply]
    show V c main_v30 _ = V c main_v30 _
    congr 1; funext a; apply Fin.ext
    match a with
    | ⟨0, _⟩ => show win0_3.index t (0 : Fin 2) * 128 + 1 * k.val = k.val; rw [e30]; omega
    | ⟨1, _⟩ => show win0_3.index t (1 : Fin 2) * 512 + 1 * j.val = j.val; rw [e31]; omega
  have hb : (iblk0 V c 4 t : Vec Ideal S512 .f32) (ix1 j) = (V c main_arg3 : S512.Idx → EReal) (ix1 j) := by
    unfold iblk0; rw [View.read_apply]
    show V c main_arg3 _ = V c main_arg3 _
    congr 1; funext a; apply Fin.ext
    match a with
    | ⟨0, _⟩ => show win0_4.index t (0 : Fin 1) * 512 + 1 * j.val = j.val; rw [e40]; omega
  simp only [hx, hn, hwa, hwb, hb]
  rfl

/-- THE ARRAY after the region: the layer of the arrays it finds (the 25 row blocks tile the array). -/
theorem final0 (c : Dev nD) (W : (⟨2, ![512, 128 + 128]⟩ : Shape).Idx → EReal)
    (hWa : ∀ (k : Fin 128) (j : Fin 512), (V c main_v28 : S128x512.Idx → EReal) (ix2 k j) = W (ix2 j (Fin.castAdd 128 k)))
    (hWb : ∀ (k : Fin 128) (j : Fin 512), (V c main_v30 : S128x512.Idx → EReal) (ix2 k j) = W (ix2 j (Fin.natAdd 128 k))) :
    (dat0 V c).arrAt 5 cfg0.N
      = Cert.Sage.layer (M := 50000) (K := 128) (N := 512) (V c main_arg0) (V c main_v24) W (V c main_arg3) :=
  (dat0 V c).arrAt_eq_of_cover 5 _ (fun t _ => flushed0_eq V c W hWa hWb t) fun i => by
    have hi0 : (i 0).val < 50000 := (i 0).isLt
    have hi1 : (i 1).val < 512 := (i 1).isLt
    have hN : cfg0.N = 25 := N_0
    obtain ⟨t, ht⟩ : ∃ t : Fin cfg0.N, t.val = (i 0).val / 2000 := ⟨⟨(i 0).val / 2000, by rw [hN]; omega⟩, rfl⟩
    obtain ⟨-, -, -, -, -, -, -, -, -, e50, e51⟩ := idx_facts0 t
    refine ⟨t, flush0_5 t, ?_⟩
    show i ∈ ((View.whole main_v31).slice (win0_5.rect t)).set
    rw [View.set_slice_whole, Rect.mem_set_unit]
    intro a
    match a with
    | ⟨0, _⟩ =>
      show win0_5.index t (0 : Fin 2) * 2000 ≤ (i 0).val ∧ (i 0).val < win0_5.index t (0 : Fin 2) * 2000 + 2000
      rw [e50, ht]; omega
    | ⟨1, _⟩ =>
      show win0_5.index t (1 : Fin 2) * 512 ≤ (i 1).val ∧ (i 1).val < win0_5.index t (1 : Fin 2) * 512 + 512
      rw [e51]; omega

end Cert.KernelIdeal.Hand

end
-- ==== Proof.KernelHead.lean ====
/-
  What the second kernel leaves in its output array: the head of the second layer of the arrays it finds.

  The grid again has 25 points; point `t` stages rows `2000·t … 2000·t + 1999` of the first layer's output and of its
  aggregated features, the two whole weight blocks, the bias, the head's weight column and the head's bias, and writes
  back rows `2000·t …` of the one-column output. Its body is the layer as before — two products into zero
  accumulators, the bias row, the rectifier — then a product of that row with the weight column, the head's bias, and
  the logistic function. With the weight blocks the transposed halves of a matrix `W` and the column the transposed
  row `Wo`, row `2000·t + r` of the output is `head (layer h n W b) Wo bo` at that row.
-/
import proofs.«109482_j80522046865741_1_alg».proof.Proof.Gen.KernelIdeal.Frame
import proofs.«109482_j80522046865741_1_alg».proof.Proof.SageSpec
import proofs.«109482_j80522046865741_1_alg».proof.Proof.LibTwoBlockLayer
import proofs.«109482_j80522046865741_1_alg».proof.Proof.KernelLayer1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The second kernel's arithmetic at row `r` of a block: the layer's row against the weight column, the head's bias,
    the logistic function. -/
theorem pay1_apply (x0 x1 : Vec Ideal S2000x512 .f32) (x2 x3 : Vec Ideal S512x512 .bf16) (x4 : Vec Ideal S512 .f32)
    (x5 : Vec Ideal S512x1 .bf16) (x6 : Vec Ideal S1 .f32) (r : Fin 2000) (u : Fin 1) :
    k1_pay1 x0 x1 x2 x3 x4 x5 x6 (ix2 r u)
      = Ideal.logistic ((∑ k : Fin 512,
            max (((∑ l : Fin 512, x0 (ix2 r l) * x2 (ix2 l k)) + ∑ l : Fin 512, x1 (ix2 r l) * x3 (ix2 l k)) + x4 (ix1 k))
              (Ideal.ofBits .f32 0x00000000#32) * x5 (ix2 k u)) + x6 (ix1 u)) := by
  unfold k1_pay1
  simp only [shapeCast_self]
  show Ideal.logistic _ = Ideal.logistic _
  refine congrArg Ideal.logistic ?_
  refine (Cert.Lib.matmul_bias_apply 2000 512 1 (φ₁ := .bf16) (φ₂ := .bf16) none _ x5 x6 shapeCasts_S1_S1x1 broadcasts_S1x1_S2000x1 r u).trans ?_
  refine congrArg (· + x6 (ix1 u)) (Finset.sum_congr rfl fun k _ => congrArg (· * x5 (ix2 k u)) ?_)
  exact Cert.Lib.two_matmul_bias_relu_apply 2000 512 512 none (truncf .bf16 x0 bitsLt_bf16_f32) x2
    (truncf .bf16 x1 bitsLt_bf16_f32) x3 x4 shapeCasts_S512_S1x512 broadcasts_S1x512_S2000x512 r k

/-- The printed index maps over the grid: the two row-blocked inputs and the output move with the point, everything
    else stays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

set_option maxHeartbeats 2000000 in
/-- WHAT POINT `t` WRITES BACK is block `t` of the head of the layer of the arrays the region finds. -/
theorem flushed1_eq (c : Dev nD) (W : (⟨2, ![512, 512 + 512]⟩ : Shape).Idx → EReal) (Wo : (⟨2, ![1, 512]⟩ : Shape).Idx → EReal)
    (hWa : ∀ (l : Fin 512) (k : Fin 512), (V c main_v48 : S512x512.Idx → EReal) (ix2 l k) = W (ix2 k (Fin.castAdd 512 l)))
    (hWb : ∀ (l : Fin 512) (k : Fin 512), (V c main_v50 : S512x512.Idx → EReal) (ix2 l k) = W (ix2 k (Fin.natAdd 512 l)))
    (hWo : ∀ (k : Fin 512) (u : Fin 1), (V c main_v52 : S512x1.Idx → EReal) (ix2 k u) = Wo (ix2 (0 : Fin 1) k))
    (t : Fin cfg1.N) :
    (dat1 V c).flushed 7 t = ((cfg1.win 7).blk t).view.read (Elt Ideal)
      (Cert.Sage.head (M := 50000) (K := 512)
        (Cert.Sage.layer (M := 50000) (K := 512) (N := 512) (V c main_v31) (V c main_v44) W (V c main_arg5)) Wo (V c main_arg7)) := by
  show (cfg1.win 7).cut (grid1.coords t) ((dat1 V c).after 7 t) = _
  rw [after1_7]
  unfold out1_7
  rw [View.canon_unit_zero hz2]
  simp only [View.ld_unit_zero (S := S2000x512) hz2, View.ld_unit_zero (S := S512x512) hz2, View.ld_unit_zero (S := S512) hz1,
    View.ld_unit_zero (S := S512x1) hz2, View.ld_unit_zero (S := S1) hz1]
  obtain ⟨e00, e01, e10, e11, e20, e21, e30, e31, e40, e50, e51, e60, e70, e71⟩ := idx_facts1 t
  have ht : t.val < 25 := by have h1 := t.isLt; have h2 : cfg1.N = 25 := N_1; omega
  funext y
  obtain ⟨r, u, rfl⟩ : ∃ (r : Fin 2000) (u : Fin 1), y = ix2 r u := ⟨y 0, y 1, eq_ix2 y⟩
  have hr : r.val < 2000 := r.isLt
  have hu : u.val = 0 := by omega
  refine (pay1_apply _ _ _ _ _ _ _ r u).trans ?_
  have hE : ((cfg1.win 7).blk t).view.emb (ix2 r u) = (ix2 (⟨2000 * t.val + r.val, by omega⟩ : Fin 50000) u : S50000x1.Idx) := by
    funext a; apply Fin.ext
    match a with
    | ⟨0, _⟩ => show win1_7.index t (0 : Fin 2) * 2000 + 1 * r.val = 2000 * t.val + r.val; rw [e70]; omega
    | ⟨1, _⟩ => show win1_7.index t (1 : Fin 2) * 1 + 1 * u.val = u.val; rw [e71]; omega
  rw [View.read_apply, hE]
  unfold Cert.Sage.head Cert.Sage.layer
  have hx : ∀ l : Fin 512, (iblk1 V c 0 t : Vec Ideal S2000x512 .f32) (ix2 r l)
      = (V c main_v31 : S50000x512.Idx → EReal) (ix2 (⟨2000 * t.val + r.val, by omega⟩ : Fin 50000) l) := fun l => by
    unfold iblk1; rw [View.read_apply]
    show V c main_v31 _ = V c main_v31 _
    congr 1; funext a; apply Fin.ext
    match a with
    | ⟨0, _⟩ => show win1_0.index t (0 : Fin 2) * 2000 + 1 * r.val = 2000 * t.val + r.val; rw [e00]; omega
    | ⟨1, _⟩ => show win1_0.index t (1 : Fin 2) * 512 + 1 * l.val = l.val; rw [e01]; omega
  have hn : ∀ l : Fin 512, (iblk1 V c 1 t : Vec Ideal S2000x512 .f32) (ix2 r l)
      = (V c main_v44 : S50000x512.Idx → EReal) (ix2 (⟨2000 * t.val + r.val, by omega⟩ : Fin 50000) l) := fun l => by
    unfold iblk1; rw [View.read_apply]
    show V c main_v44 _ = V c main_v44 _
    congr 1; funext a; apply Fin.ext
    match a with
    | ⟨0, _⟩ => show win1_1.index t (0 : Fin 2) * 2000 + 1 * r.val = 2000 * t.val + r.val; rw [e10]; omega
    | ⟨1, _⟩ => show win1_1.index t (1 : Fin 2) * 512 + 1 * l.val = l.val; rw [e11]; omega
  have hwa : ∀ (l k : Fin 512), (iblk1 V c 2 t : Vec Ideal S512x512 .bf16) (ix2 l k) = W (ix2 k (Fin.castAdd 512 l)) := fun l k => by
    rw [← hWa l k]
    unfold iblk1; rw [View.read_apply]
    show V c main_v48 _ = V c main_v48 _
    congr 1; funext a; apply Fin.ext
    match a with
    | ⟨0, _⟩ => show win1_2.index t (0 : Fin 2) * 512 + 1 * l.val = l.val; rw [e20]; omega
    | ⟨1, _⟩ => show win1_2.index t (1 : Fin 2) * 512 + 1 * k.val = k.val; rw [e21]; omega
  have hwb : ∀ (l k : Fin 512), (iblk1 V c 3 t : Vec Ideal S512x512 .bf16) (ix2 l k) = W (ix2 k (Fin.natAdd 512 l)) := fun l k => by
    rw [← hWb l k]
    unfold iblk1; rw [View.read_apply]
    show V c main_v50 _ = V c main_v50 _
    congr 1; funext a; apply Fin.ext
    match a with
    | ⟨0, _⟩ => show win1_3.index t (0 : Fin 2) * 512 + 1 * l.val = l.val; rw [e30]; omega
    | ⟨1, _⟩ => show win1_3.index t (1 : Fin 2) * 512 + 1 * k.val = k.val; rw [e31]; omega
  have hb : ∀ k : Fin 512, (iblk1 V c 4 t : Vec Ideal S512 .f32) (ix1 k) = (V c main_arg5 : S512.Idx → EReal) (ix1 k) := fun k => by
    unfold iblk1; rw [View.read_apply]
    show V c main_arg5 _ = V c main_arg5 _
    congr 1; funext a; apply Fin.ext
    match a with
    | ⟨0, _⟩ => show win1_4.index t (0 : Fin 1) * 512 + 1 * k.val = k.val; rw [e40]; omega
  have hwo : ∀ k : Fin 512, (iblk1 V c 5 t : Vec Ideal S512x1 .bf16) (ix2 k u) = Wo (ix2 (0 : Fin 1) k) := fun k => by
    rw [← hWo k u]
    unfold iblk1; rw [View.read_apply]
    show V c main_v52 _ = V c main_v52 _
    congr 1; funext a; apply Fin.ext
    match a with
    | ⟨0, _⟩ => show win1_5.index t (0 : Fin 2) * 512 + 1 * k.val = k.val; rw [e50]; omega
    | ⟨1, _⟩ => show win1_5.index t (1 : Fin 2) * 1 + 1 * u.val = u.val; rw [e51]; omega
  have hbo : (iblk1 V c 6 t : Vec Ideal S1 .f32) (ix1 u) = (V c main_arg7 : S1.Idx → EReal) (ix1 (0 : Fin 1)) := by
    unfold iblk1; rw [View.read_apply]
    show V c main_arg7 _ = V c main_arg7 _
    congr 1; funext a; apply Fin.ext
    match a with
    | ⟨0, _⟩ => show win1_6.index t (0 : Fin 1) * 1 + 1 * u.val = 0; rw [e60]; omega
  simp only [hx, hn, hwa, hwb, hb, hwo, hbo]
  rfl

/-- THE ARRAY after the region: the head of the layer of the arrays it finds (the 25 row blocks tile the array). -/
theorem final1 (c : Dev nD) (W : (⟨2, ![512, 512 + 512]⟩ : Shape).Idx → EReal) (Wo : (⟨2, ![1, 512]⟩ : Shape).Idx → EReal)
    (hWa : ∀ (l : Fin 512) (k : Fin 512), (V c main_v48 : S512x512.Idx → EReal) (ix2 l k) = W (ix2 k (Fin.castAdd 512 l)))
    (hWb : ∀ (l : Fin 512) (k : Fin 512), (V c main_v50 : S512x512.Idx → EReal) (ix2 l k) = W (ix2 k (Fin.natAdd 512 l)))
    (hWo : ∀ (k : Fin 512) (u : Fin 1), (V c main_v52 : S512x1.Idx → EReal) (ix2 k u) = Wo (ix2 (0 : Fin 1) k)) :
    (dat1 V c).arrAt 7 cfg1.N
      = Cert.Sage.head (M := 50000) (K := 512)
          (Cert.Sage.layer (M := 50000) (K := 512) (N := 512) (V c main_v31) (V c main_v44) W (V c main_arg5)) Wo (V c main_arg7) :=
  (dat1 V c).arrAt_eq_of_cover 7 _ (fun t _ => flushed1_eq V c W Wo hWa hWb hWo t) fun i => by
    have hi0 : (i 0).val < 50000 := (i 0).isLt
    have hi1 : (i 1).val < 1 := (i 1).isLt
    have hN : cfg1.N = 25 := N_1
    obtain ⟨t, ht⟩ : ∃ t : Fin cfg1.N, t.val = (i 0).val / 2000 := ⟨⟨(i 0).val / 2000, by rw [hN]; omega⟩, rfl⟩
    obtain ⟨-, -, -, -, -, -, -, -, -, -, -, -, e70, e71⟩ := idx_facts1 t
    refine ⟨t, flush1_7 t, ?_⟩
    show i ∈ ((View.whole main_v53).slice (win1_7.rect t)).set
    rw [View.set_slice_whole, Rect.mem_set_unit]
    intro a
    match a with
    | ⟨0, _⟩ =>
      show win1_7.index t (0 : Fin 2) * 2000 ≤ (i 0).val ∧ (i 0).val < win1_7.index t (0 : Fin 2) * 2000 + 2000
      rw [e70, ht]; omega
    | ⟨1, _⟩ =>
      show win1_7.index t (1 : Fin 2) * 1 ≤ (i 1).val ∧ (i 1).val < win1_7.index t (1 : Fin 2) * 1 + 1
      rw [e71]; omega

end Cert.KernelIdeal.Hand

end
-- ==== Proof.LibConcatCols.lean ====
/-
  Two matrices joined side by side, read at an index, and a sum over the joined axis.

  For `a, b` of shape `[M, K]`, the concatenation along the column axis has shape `[M, K + K]`: column `k < K` is
  `a`'s column `k`, column `K + k` is `b`'s column `k`. Hence a sum over the joined axis of the concatenation
  against any weights `g` is the sum over `a`'s columns against the first `K` weights plus the sum over `b`'s
  columns against the last `K` — in any commutative monoid with a product, so on the extended reals with no
  finiteness assumed.
-/
import Idealize.ShloMosaic.Lib.Pipeline.Value
import Idealize.ShloMosaic.Lib.ValueIdx

noncomputable section

namespace Cert.Lib

open Idealize.ShloMosaic Idealize.ShloMosaic.ValueIdx

variable {α : Type} {M K : ℕ}

/-- Column `k < K` of the concatenation is the first matrix's column `k`. -/
theorem concat_cols_left (a b : (⟨2, ![M, K]⟩ : Shape).Idx → α)
    (h : Shape.Concatenates [(⟨2, ![M, K]⟩ : Shape), ⟨2, ![M, K]⟩] ⟨2, ![M, K + K]⟩ 1) (i : Fin M) (k : Fin K) :
    concatenate ⟨2, ![M, K + K]⟩ 1 [⟨⟨2, ![M, K]⟩, a⟩, ⟨⟨2, ![M, K]⟩, b⟩] h (ix2 i (Fin.castAdd K k)) = a (ix2 i k) :=
  concatenate_pair_apply_left 1 a b h (ix2 i (Fin.castAdd K k)) rfl (ix2 i k) fun c =>
    match c with
    | ⟨0, _⟩ => rfl
    | ⟨1, _⟩ => rfl

/-- Column `K + k` of the concatenation is the second matrix's column `k`. -/
theorem concat_cols_right (a b : (⟨2, ![M, K]⟩ : Shape).Idx → α)
    (h : Shape.Concatenates [(⟨2, ![M, K]⟩ : Shape), ⟨2, ![M, K]⟩] ⟨2, ![M, K + K]⟩ 1) (i : Fin M) (k : Fin K) :
    concatenate ⟨2, ![M, K + K]⟩ 1 [⟨⟨2, ![M, K]⟩, a⟩, ⟨⟨2, ![M, K]⟩, b⟩] h (ix2 i (Fin.natAdd K k)) = b (ix2 i k) :=
  concatenate_pair_apply_right 1 a b h (ix2 i (Fin.natAdd K k)) rfl rfl (ix2 i k)
    (fun c hc =>
      match c, hc with
      | ⟨0, _⟩, _ => rfl
      | ⟨1, _⟩, hc => absurd rfl hc)
    (by show k.val + K = K + k.val; omega)

/-- A SUM OVER THE JOINED AXIS: the concatenation's row against weights `g` is `a`'s row against the first `K` weights
    plus `b`'s row against the last `K`. -/
theorem sum_concat_cols {R : Type} [AddCommMonoid R] [Mul R] (a b : (⟨2, ![M, K]⟩ : Shape).Idx → R)
    (h : Shape.Concatenates [(⟨2, ![M, K]⟩ : Shape), ⟨2, ![M, K]⟩] ⟨2, ![M, K + K]⟩ 1) (i : Fin M) (g : Fin (K + K) → R) :
    (∑ k : Fin (K + K), concatenate ⟨2, ![M, K + K]⟩ 1 [⟨⟨2, ![M, K]⟩, a⟩, ⟨⟨2, ![M, K]⟩, b⟩] h (ix2 i k) * g k)
      = (∑ k : Fin K, a (ix2 i k) * g (Fin.castAdd K k)) + ∑ k : Fin K, b (ix2 i k) * g (Fin.natAdd K k) := by
  rw [Fin.sum_univ_add]
  simp only [concat_cols_left, concat_cols_right]

end Cert.Lib

end
-- ==== Proof.LibLogisticQuotient.lean ====
/-
  The logistic function spelled as a quotient.

  On the extended reals the logistic function is `σ(v) = 1 / (1 + e⁻ᵛ)`, with `σ(−∞) = 0` and `σ(+∞) = 1` by the
  conventions of the quotient and of the exponential at the infinities. A program that does not have the function
  as one operation spells it out: negate, exponentiate, add the number one, divide the number one by the sum, both ones
  given by their binary32 word `0x3F800000`. That expression is the logistic function at every extended real — it is
  the function's definition once the word is read as the number one.
-/
import Idealize.ShloMosaic.PureOps.Ideal

noncomputable section

namespace Cert.Lib

open Idealize.ShloMosaic

/-- The binary32 word `0x3F800000` is the number one. -/
theorem one_f32 : Ideal.ofBits .f32 0x3F800000#32 = 1 := by
  simp [Ideal.ofBits, Ideal.ieee, -EReal.coe_mul]; norm_num

/-- THE QUOTIENT `1 / (1 + e⁻ᵛ)`, both ones given by their binary32 word, is the logistic function of `v`, at the
    infinities too. -/
theorem quotient_logistic (v : EReal) :
    Ideal.div (Ideal.ofBits .f32 0x3F800000#32) (Ideal.ofBits .f32 0x3F800000#32 + Ideal.exp (-v)) = Ideal.logistic v := by
  rw [one_f32]; rfl

/-- The same in the host's operations at the ideal values: divide, add, exponential, negate. -/
theorem host_quotient_logistic (v : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf v)))
      = FloatOps.logistic v :=
  quotient_logistic v

end Cert.Lib

end
-- ==== Proof.RefIsSage.lean ====
/-
  The reference program, stage by stage, is the two layers and the head of `SageSpec`.

  Each layer of the reference joins the node's own features and its aggregated neighbour features side by side,
  multiplies the joined row by the transposed weight matrix, adds the bias and cuts off the negative part. The sum
  over the joined axis splits at the seam: the first half of the columns meets the node's own features, the second
  half the neighbours'. That is the layer of `SageSpec`, with the aggregated features left as the reference computes
  them. The head spells the logistic function as the quotient `1 / (1 + e⁻ᵛ)`.
-/
import proofs.«109482_j80522046865741_1_alg».proof.Proof.Gen.ReferenceIdeal.Read
import proofs.«109482_j80522046865741_1_alg».proof.Proof.SageSpec
import proofs.«109482_j80522046865741_1_alg».proof.Proof.LibConcatCols
import proofs.«109482_j80522046865741_1_alg».proof.Proof.LibLogisticQuotient

noncomputable section

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x400000, .i32⟩ : BufTy).Contents (Elt Ideal))
  (x2 : (⟨S512x256, .f32⟩ : BufTy).Contents (Elt Ideal)) (x3 : (⟨S512, .f32⟩ : BufTy).Contents (Elt Ideal))
  (x4 : (⟨S512x1024, .f32⟩ : BufTy).Contents (Elt Ideal)) (x5 : (⟨S512, .f32⟩ : BufTy).Contents (Elt Ideal))
  (x6 : (⟨S1x512, .f32⟩ : BufTy).Contents (Elt Ideal)) (x7 : (⟨S1, .f32⟩ : BufTy).Contents (Elt Ideal))

/-- THE FIRST LAYER: the rectified affine form of the joined row `[x | n₁]` is the layer of the node features `x`
    and the aggregated features `n₁`. -/
theorem layer1_eq : val_main_v31 (F := Ideal) x0 x1 x2 x3
    = Cert.Sage.layer (M := 50000) (K := 128) (N := 512) x0 (val_main_v24 (F := Ideal) x0 x1) x2 x3 := by
  funext I
  obtain ⟨i, j, rfl⟩ : ∃ (i : Fin 50000) (j : Fin 512), I = ix2 i j := ⟨I 0, I 1, eq_ix2 I⟩
  have el : ∀ k : Fin 256, lidx_main_v27 (ix2 i j) k = ix2 i k := fun k => funext fun a => Fin.ext (by
    match a with
    | ⟨0, _⟩ => rfl
    | ⟨1, _⟩ => rfl)
  have er : ∀ k : Fin 256, idx_main_v26 (ridx_main_v27 (ix2 i j) k) = ix2 j k := fun k => funext fun a => Fin.ext (by
    match a with
    | ⟨0, _⟩ => rfl
    | ⟨1, _⟩ => rfl)
  have eb : idx_main_v28 (idx_main_v29 (ix2 i j)) = ix1 j := funext fun a => Fin.ext (by
    match a with
    | ⟨0, _⟩ => rfl)
  rw [val_main_v31_apply, val_main_v30_apply, val_main_v27_apply, val_main_v29_apply, val_main_v28_apply,
    val_main_call0_v0_apply, val_main_call0_cst_apply, eb]
  simp only [val_main_v26_apply, el, er]
  unfold val_main_v25 Cert.Sage.layer
  exact congrArg (fun s => max (s + x3 (ix1 j)) Cert.Sage.zero32)
    (Cert.Lib.sum_concat_cols (R := EReal) (M := 50000) (K := 128) x0 (val_main_v24 (F := Ideal) x0 x1)
      concatenates_S50000x128_S50000x128_S50000x256_d1 i (fun k => x2 (ix2 j k)))

/-- THE SECOND LAYER: the same form of the joined row `[h₁ | n₂]`. -/
theorem layer2_eq : val_main_v51 (F := Ideal) x0 x1 x2 x3 x4 x5
    = Cert.Sage.layer (M := 50000) (K := 512) (N := 512) (val_main_v31 (F := Ideal) x0 x1 x2 x3)
        (val_main_v44 (F := Ideal) x0 x1 x2 x3) x4 x5 := by
  funext I
  obtain ⟨i, j, rfl⟩ : ∃ (i : Fin 50000) (j : Fin 512), I = ix2 i j := ⟨I 0, I 1, eq_ix2 I⟩
  have el : ∀ k : Fin 1024, lidx_main_v47 (ix2 i j) k = ix2 i k := fun k => funext fun a => Fin.ext (by
    match a with
    | ⟨0, _⟩ => rfl
    | ⟨1, _⟩ => rfl)
  have er : ∀ k : Fin 1024, idx_main_v46 (ridx_main_v47 (ix2 i j) k) = ix2 j k := fun k => funext fun a => Fin.ext (by
    match a with
    | ⟨0, _⟩ => rfl
    | ⟨1, _⟩ => rfl)
  have eb : idx_main_v48 (idx_main_v49 (ix2 i j)) = ix1 j := funext fun a => Fin.ext (by
    match a with
    | ⟨0, _⟩ => rfl)
  rw [val_main_v51_apply, val_main_v50_apply, val_main_v47_apply, val_main_v49_apply, val_main_v48_apply,
    val_main_call1_v0_apply, val_main_call1_cst_apply, eb]
  simp only [val_main_v46_apply, el, er]
  unfold val_main_v45 Cert.Sage.layer
  exact congrArg (fun s => max (s + x5 (ix1 j)) Cert.Sage.zero32)
    (Cert.Lib.sum_concat_cols (R := EReal) (M := 50000) (K := 512) (val_main_v31 (F := Ideal) x0 x1 x2 x3)
      (val_main_v44 (F := Ideal) x0 x1 x2 x3) concatenates_S50000x512_S50000x512_S50000x1024_d1 i (fun k => x4 (ix2 j k)))

/-- THE HEAD: the quotient `1 / (1 + e⁻ᵛ)` of the second layer's affine form is its logistic function. -/
theorem head_eq : val_main_v62 (F := Ideal) x0 x1 x2 x3 x4 x5 x6 x7
    = Cert.Sage.head (M := 50000) (K := 512) (val_main_v51 (F := Ideal) x0 x1 x2 x3 x4 x5) x6 x7 := by
  funext I
  obtain ⟨i, u, rfl⟩ : ∃ (i : Fin 50000) (u : Fin 1), I = ix2 i u := ⟨I 0, I 1, eq_ix2 I⟩
  have el : ∀ k : Fin 512, lidx_main_v53 (ix2 i u) k = ix2 i k := fun k => funext fun a => Fin.ext (by
    match a with
    | ⟨0, _⟩ => rfl
    | ⟨1, _⟩ => rfl)
  have er : ∀ k : Fin 512, idx_main_v52 (ridx_main_v53 (ix2 i u) k) = ix2 (0 : Fin 1) k := fun k => funext fun a => Fin.ext (by
    match a with
    | ⟨0, _⟩ => show u.val = 0; omega
    | ⟨1, _⟩ => rfl)
  have eb : idx_main_v54 (idx_main_v55 (ix2 i u)) = ix1 (0 : Fin 1) := funext fun a => Fin.ext (by
    match a with
    | ⟨0, _⟩ => rfl)
  rw [val_main_v62_apply, val_main_v61_apply, val_main_cst_9_apply, val_main_v60_apply, val_main_v59_apply,
    val_main_cst_8_apply, val_main_v58_apply, val_main_v57_apply, val_main_v56_apply, val_main_v53_apply,
    val_main_v55_apply, val_main_v54_apply, eb, Cert.Lib.host_quotient_logistic]
  simp only [val_main_v52_apply, el, er]
  rfl

end Cert.ReferenceIdeal.RefValue

end
-- ==== Proof.KernelEntry1.lean ====
/-
  What the first kernel finds, and so what it leaves.

  Before the first kernel the host computes, from the node features `x` and the edge list: the aggregated neighbour
  features `n₁` — the very operations, in the very order, of the reference program, so the array is the reference's
  own stage — and the two weight blocks: columns `0 … 127` and columns `128 … 255` of `W₁`, each transposed. Block
  one at `(k, j)` is therefore `W₁[j, k]` and block two `W₁[j, 128 + k]`, which is what the kernel's layer needs: its
  output array is the first layer `h₁ = layer x n₁ W₁ b₁`, the reference's first-layer stage.
-/
import proofs.«109482_j80522046865741_1_alg».proof.Proof.Gen.KernelIdeal.Frame
import proofs.«109482_j80522046865741_1_alg».proof.Proof.Gen.ReferenceIdeal.Read
import proofs.«109482_j80522046865741_1_alg».proof.Proof.KernelLayer1
import proofs.«109482_j80522046865741_1_alg».proof.Proof.RefIsSage
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The node features reach the first kernel as launched. -/
theorem V1_arg0 (c : Dev nD) : V1 m ρ c main_arg0 = m ((c : Thread nD τ).loc main_arg0) := by
  show StableHlo.after hostOps0 (W0 m ρ c) (Proc.devRef .tc main_arg0) = _
  after_results_simp <;> rfl

/-- The first bias reaches the first kernel as launched. -/
theorem V1_arg3 (c : Dev nD) : V1 m ρ c main_arg3 = m ((c : Thread nD τ).loc main_arg3) := by
  show StableHlo.after hostOps0 (W0 m ρ c) (Proc.devRef .tc main_arg3) = _
  after_results_simp <;> rfl

set_option maxHeartbeats 8000000 in
/-- The aggregated neighbour features the first kernel finds are the reference's stage: the same operations of the same
    arguments. -/
theorem V1_v24 (c : Dev nD) : (V1 m ρ c main_v24 : S50000x128.Idx → EReal)
    = Cert.ReferenceIdeal.Read.val_main_v24 (F := Ideal) (m ((c : Thread nD τ).loc main_arg0)) (m ((c : Thread nD τ).loc main_arg1)) := by
  show StableHlo.after hostOps0 (W0 m ρ c) (Proc.devRef .tc main_v24) = _
  after_results_simp <;> rfl

/-- The first weight block at `(k, j)` is `W₁[j, k]`. -/
theorem V1_v28_apply (c : Dev nD) (k : Fin 128) (j : Fin 512) :
    (V1 m ρ c main_v28 : S128x512.Idx → EReal) (ix2 k j)
      = (m ((c : Thread nD τ).loc main_arg2) : (⟨2, ![512, 128 + 128]⟩ : Shape).Idx → EReal) (ix2 j (Fin.castAdd 128 k)) := by
  have e : (V1 m ρ c main_v28 : S128x512.Idx → EReal)
      = truncf (F := Ideal) .bf16 (transpose S128x512 [1, 0] (extractStridedSlice S512x128 ![0, 0]
          (m ((c : Thread nD τ).loc main_arg2)) slices_S512x256_S512x128_0_0) transposes_S512x128_S128x512_1_0) bitsLt_bf16_f32 := by
    show StableHlo.after hostOps0 (W0 m ρ c) (Proc.devRef .tc main_v28) = _
    after_results_simp <;> rfl
  rw [e, truncf_apply, transpose_ix2_apply]
  exact slice2_axis1_apply 0 _ slices_S512x256_S512x128_0_0 j k (Fin.castAdd 128 k) (Nat.zero_add _).symm

/-- The second weight block at `(k, j)` is `W₁[j, 128 + k]`. -/
theorem V1_v30_apply (c : Dev nD) (k : Fin 128) (j : Fin 512) :
    (V1 m ρ c main_v30 : S128x512.Idx → EReal) (ix2 k j)
      = (m ((c : Thread nD τ).loc main_arg2) : (⟨2, ![512, 128 + 128]⟩ : Shape).Idx → EReal) (ix2 j (Fin.natAdd 128 k)) := by
  have e : (V1 m ρ c main_v30 : S128x512.Idx → EReal)
      = truncf (F := Ideal) .bf16 (transpose S128x512 [1, 0] (extractStridedSlice S512x128 ![0, 128]
          (m ((c : Thread nD τ).loc main_arg2)) slices_S512x256_S512x128_0_128) transposes_S512x128_S128x512_1_0) bitsLt_bf16_f32 := by
    show StableHlo.after hostOps0 (W0 m ρ c) (Proc.devRef .tc main_v30) = _
    after_results_simp <;> rfl
  rw [e, truncf_apply, transpose_ix2_apply]
  exact slice2_axis1_apply 128 _ slices_S512x256_S512x128_0_128 j k (Fin.natAdd 128 k) rfl

/-- WHAT THE FIRST KERNEL LEAVES: the reference's first-layer stage. -/
theorem h1_eq (c : Dev nD) : (dat0 (V1 m ρ) c).arrAt 5 cfg0.N
    = Cert.ReferenceIdeal.Read.val_main_v31 (F := Ideal) (m ((c : Thread nD τ).loc main_arg0)) (m ((c : Thread nD τ).loc main_arg1))
        (m ((c : Thread nD τ).loc main_arg2)) (m ((c : Thread nD τ).loc main_arg3)) := by
  refine (final0 (V1 m ρ) c (m ((c : Thread nD τ).loc main_arg2)) (V1_v28_apply m ρ c) (V1_v30_apply m ρ c)).trans ?_
  rw [V1_arg0, V1_arg3, V1_v24]
  exact (Cert.ReferenceIdeal.RefValue.layer1_eq _ _ _ _).symm

end Cert.KernelIdeal.Hand

end
-- ==== Proof.KernelEntry2.lean ====
/-
  What the second kernel finds, and so what the program returns.

  Between the two kernels the host aggregates the first layer's output `h₁` over the same edge list — again the
  reference's operations in the reference's order, now applied to the first kernel's output array, which is the
  reference's first-layer stage — and cuts `W₂` into its two column halves, transposed, and transposes `Wo`. The
  buffers it reads that the first kernel does not own (the edge endpoints, the inverse degrees, the later arguments)
  still hold what the first stretch of host operations left. So the second kernel finds `h₁`, the reference's `n₂`,
  the two halves of `W₂`, `b₂`, `Woᵀ` and `bo`, and its output array — the program's result — is
  `head (layer h₁ n₂ W₂ b₂) Wo bo`: the reference's result stage.
-/
import proofs.«109482_j80522046865741_1_alg».proof.Proof.Gen.KernelIdeal.Frame
import proofs.«109482_j80522046865741_1_alg».proof.Proof.Gen.ReferenceIdeal.Read
import proofs.«109482_j80522046865741_1_alg».proof.Proof.KernelHead
import proofs.«109482_j80522046865741_1_alg».proof.Proof.KernelEntry1
import proofs.«109482_j80522046865741_1_alg».proof.Proof.RefIsSage
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## What the first kernel leaves untouched -/

/-- The first kernel's output array, at its exit, is the reference's first-layer stage. -/
theorem W2_v31 (c : Dev nD) : W2 m ρ c (Proc.devRef .tc main_v31)
    = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) :=
  (W2_arr m ρ c 5).trans (h1_eq m ρ c)

set_option maxHeartbeats 8000000 in
/-- The edges' source endpoints, as the first host stretch left them, are the reference's stage. -/
theorem W2_v1 (c : Dev nD) : W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp <;> rfl

set_option maxHeartbeats 8000000 in
/-- The edges' destination endpoints likewise. -/
theorem W2_v3 (c : Dev nD) : W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp <;> rfl

set_option maxHeartbeats 8000000 in
/-- The inverse degrees likewise. -/
theorem W2_v11 (c : Dev nD) : W2 m ρ c (Proc.devRef .tc main_v11) = Cert.ReferenceIdeal.Read.val_main_v11 (F := Ideal) (m ((c : Thread nD τ).loc main_arg1)) := by
  rw [W2_of_ne m ρ c main_v11 (by decide)]
  show StableHlo.after hostOps0 (W0 m ρ c) (Proc.devRef .tc main_v11) = _
  after_results_simp <;> rfl

/-- The later arguments are still as launched when the second host stretch starts. -/
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results_simp <;> rfl
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp <;> rfl
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl

/-! ## What the second kernel finds -/

/-- The first layer's output reaches the second kernel as the first kernel left it. -/
theorem V3_v31 (c : Dev nD) : V3 m ρ c main_v31
    = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) := by
  refine Eq.trans ?_ (W2_v31 m ρ c)
  show StableHlo.after hostOps1 (W2 m ρ c) (Proc.devRef .tc main_v31) = _
  after_results_simp <;> rfl

set_option maxHeartbeats 8000000 in
/-- The aggregated first-layer features the second kernel finds are the reference's stage. -/
theorem V3_v44 (c : Dev nD) : (V3 m ρ c main_v44 : S50000x512.Idx → EReal)
    = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v44) = _
  after_results_simp
  rw [W2_v31 m ρ c, W2_v1 m ρ c, W2_v3 m ρ c, W2_v11 m ρ c]
  rfl

/-- The second bias and the head's bias reach the second kernel as launched. -/
theorem V3_arg5 (c : Dev nD) : V3 m ρ c main_arg5 = m ((c : Thread nD τ).loc main_arg5) := by
  refine Eq.trans ?_ (W2_arg5 m ρ c)
  show StableHlo.after hostOps1 (W2 m ρ c) (Proc.devRef .tc main_arg5) = _
  after_results_simp <;> rfl
theorem V3_arg7 (c : Dev nD) : V3 m ρ c main_arg7 = m ((c : Thread nD τ).loc main_arg7) := by
  refine Eq.trans ?_ (W2_arg7 m ρ c)
  show StableHlo.after hostOps1 (W2 m ρ c) (Proc.devRef .tc main_arg7) = _
  after_results_simp <;> rfl

/-- The first weight block at `(l, k)` is `W₂[k, l]`. -/
theorem V3_v48_apply (c : Dev nD) (l : Fin 512) (k : Fin 512) :
    (V3 m ρ c main_v48 : S512x512.Idx → EReal) (ix2 l k)
      = (m ((c : Thread nD τ).loc main_arg4) : (⟨2, ![512, 512 + 512]⟩ : Shape).Idx → EReal) (ix2 k (Fin.castAdd 512 l)) := by
  have e : (V3 m ρ c main_v48 : S512x512.Idx → EReal)
      = truncf (F := Ideal) .bf16 (transpose S512x512 [1, 0] (extractStridedSlice S512x512 ![0, 0]
          (m ((c : Thread nD τ).loc main_arg4)) slices_S512x1024_S512x512_0_0) transposes_S512x512_S512x512_1_0) bitsLt_bf16_f32 := by
    rw [← W2_arg4 m ρ c]
    show StableHlo.after hostOps1 (W2 m ρ c) (Proc.devRef .tc main_v48) = _
    after_results_simp <;> rfl
  rw [e, truncf_apply, transpose_ix2_apply]
  exact slice2_axis1_apply 0 _ slices_S512x1024_S512x512_0_0 k l (Fin.castAdd 512 l) (Nat.zero_add _).symm

/-- The second weight block at `(l, k)` is `W₂[k, 512 + l]`. -/
theorem V3_v50_apply (c : Dev nD) (l : Fin 512) (k : Fin 512) :
    (V3 m ρ c main_v50 : S512x512.Idx → EReal) (ix2 l k)
      = (m ((c : Thread nD τ).loc main_arg4) : (⟨2, ![512, 512 + 512]⟩ : Shape).Idx → EReal) (ix2 k (Fin.natAdd 512 l)) := by
  have e : (V3 m ρ c main_v50 : S512x512.Idx → EReal)
      = truncf (F := Ideal) .bf16 (transpose S512x512 [1, 0] (extractStridedSlice S512x512 ![0, 512]
          (m ((c : Thread nD τ).loc main_arg4)) slices_S512x1024_S512x512_0_512) transposes_S512x512_S512x512_1_0) bitsLt_bf16_f32 := by
    rw [← W2_arg4 m ρ c]
    show StableHlo.after hostOps1 (W2 m ρ c) (Proc.devRef .tc main_v50) = _
    after_results_simp <;> rfl
  rw [e, truncf_apply, transpose_ix2_apply]
  exact slice2_axis1_apply 512 _ slices_S512x1024_S512x512_0_512 k l (Fin.natAdd 512 l) rfl

/-- The head's weight column at `(k, u)` is `Wo[0, k]`. -/
theorem V3_v52_apply (c : Dev nD) (k : Fin 512) (u : Fin 1) :
    (V3 m ρ c main_v52 : S512x1.Idx → EReal) (ix2 k u) = (m ((c : Thread nD τ).loc main_arg6) : S1x512.Idx → EReal) (ix2 (0 : Fin 1) k) := by
  have e : (V3 m ρ c main_v52 : S512x1.Idx → EReal)
      = truncf (F := Ideal) .bf16 (transpose S512x1 [1, 0] (m ((c : Thread nD τ).loc main_arg6)) transposes_S1x512_S512x1_1_0) bitsLt_bf16_f32 := by
    rw [← W2_arg6 m ρ c]
    show StableHlo.after hostOps1 (W2 m ρ c) (Proc.devRef .tc main_v52) = _
    after_results_simp <;> rfl
  obtain rfl : u = 0 := Subsingleton.elim _ _
  rw [e, truncf_apply, transpose_ix2_apply]

/-! ## The result -/

/-- THE PROGRAM'S RESULT: the last boundary's contents at the result array are the reference's result stage. -/
theorem result_eq (c : Dev nD) : W4 m ρ c (Proc.devRef .tc main_v53)
    = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 7).trans ?_
  refine (final1 (V3 m ρ) c (m ((c : Thread nD τ).loc main_arg4)) (m ((c : Thread nD τ).loc main_arg6)) (V3_v48_apply m ρ c) (V3_v50_apply m ρ c) (V3_v52_apply m ρ c)).trans ?_
  rw [V3_v31, V3_v44, V3_arg5, V3_arg7, ← Cert.ReferenceIdeal.RefValue.layer2_eq, ← Cert.ReferenceIdeal.RefValue.head_eq]

end Cert.KernelIdeal.Hand

end
-- ==== Proof.lean ====
/-
  A two-layer GraphSAGE network with a logistic output head, as two tiled kernels, against its plain reference —
  equal as functions on the extended reals.

  Both programs aggregate neighbour features the same way, by the same host operations in the same order: gather
  the source endpoint's row for every edge, add it into the destination endpoint's row, scale each row by
  `1 / max(degree, 1)`. They differ in how a layer is computed. The reference joins a node's own features and its
  aggregated features side by side and multiplies the joined row by the transposed weight matrix. The kernel never
  forms the joined row: it multiplies the own features by the transposed first half of the weight matrix's columns and
  the aggregated features by the transposed second half, and adds the two products. A sum over the joined axis splits
  at the seam into exactly those two sums; that uses only that addition is commutative and associative, so it holds
  at the infinities too and no input needs to be finite. The head is the logistic function of an affine form of the
  second layer's row: one operation in the kernel, the quotient `1 / (1 + e⁻ᵛ)` in the reference — one function on
  the extended reals. Narrowing an operand to a shorter float format is the identity at the ideal values.

  The modules: `SageSpec` states a layer and the head as whole-array functions; `RefIsSage` reads the reference,
  stage by stage, as those; `KernelLayer1` and `KernelHead` read each kernel's output array — its 25 row blocks
  tile the array — as those of the arrays the kernel finds; `KernelEntry1` and `KernelEntry2` say what each kernel
  finds, the aggregated features being the reference's own stages; `KernelRun` is the idealized kernel's run with its
  result named. Nothing was rewritten between the kernel and its idealization, so that conjunct is `True`.
-/
import proofs.«109482_j80522046865741_1_alg».proof.Defs
import proofs.«109482_j80522046865741_1_alg».proof.Proof.Gen.Kernel
import proofs.«109482_j80522046865741_1_alg».proof.Proof.Gen.Kernel.Frame
import proofs.«109482_j80522046865741_1_alg».proof.Proof.Gen.KernelIdeal
import proofs.«109482_j80522046865741_1_alg».proof.Proof.Gen.KernelIdeal.Frame
import proofs.«109482_j80522046865741_1_alg».proof.Proof.Gen.ReferenceIdeal
import proofs.«109482_j80522046865741_1_alg».proof.Proof.Gen.ReferenceIdeal.Run
import proofs.«109482_j80522046865741_1_alg».proof.Proof.Gen.ReferenceIdeal.Read
import proofs.«109482_j80522046865741_1_alg».proof.Proof.Gen.Pre_finite_inputs
import proofs.«109482_j80522046865741_1_alg».proof.Proof.KernelRun
import proofs.«109482_j80522046865741_1_alg».proof.Proof.KernelEntry2
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's is the last
    boundary's contents, which are the reference's result stage of the kernel's arguments; the reference's is that
    stage of its own arguments, which agree. -/
theorem algebraic : Cert.algebraic_KernelIdeal_ReferenceIdeal := by
  intro m ρ m' ρ' _ hagree
  refine ⟨fun c => Cert.KernelIdeal.Gen.W4 m ρ c (Proc.devRef .tc Cert.KernelIdeal.main_v53),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
